-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000000 : Shape := ⟨1, ![20000000]⟩
abbrev S_ : Shape := ⟨0, ![]⟩

class Facts : Prop where
  bcast_S_S20000000 : S_.BroadcastsInDim S20000000 (![] : Fin 0 → Fin S20000000.rank)
  reducesTo_S20000000_S_d0 : S20000000.ReducesTo [0] S_
  h_S_ : 0 < S_.numel

variable [Facts]

def fn {F : FTy → Type} [FloatOps F] (main_arg0 : IVec S20000000 32) (main_arg1 : IVec S20000000 32) (main_arg2 : FVec F S20000000 .f32) : IVec S_ 1 :=
  let main_v0 : FVec F S20000000 .f32 := Host.absf main_arg2
  let main_cst : FVec F S_ .f32 := constant S_ .f32 0x7F800000#32
  let main_v1 : FVec F S20000000 .f32 := broadcastInDim S20000000 ![] bcast_S_S20000000 main_cst
  let main_v2 : IVec S20000000 1 := cmpf .olt main_v0 main_v1
  let main_c : IVec S_ 1 := constantI S_ 1 1#1
  let main_v3 : IVec S_ 1 := (fun x v => Host.reduce IntOp.andi x v reducesTo_S20000000_S_d0 h_S_) main_v2 main_c
  main_v3
-- ==== Kernel.lean ====
abbrev S20000000 : Shape := ⟨1, ![20000000]⟩
abbrev S2x25x3125x128 : Shape := ⟨4, ![2, 25, 3125, 128]⟩
abbrev S2x45x128 : Shape := ⟨3, ![2, 45, 128]⟩
abbrev S1x1x3125x128 : Shape := ⟨4, ![1, 1, 3125, 128]⟩
abbrev S1x45x128 : Shape := ⟨3, ![1, 45, 128]⟩
abbrev S45x128 : Shape := ⟨2, ![45, 128]⟩
abbrev S3125x128 : Shape := ⟨2, ![3125, 128]⟩
abbrev S128 : Shape := ⟨1, ![128]⟩
abbrev S1x128 : Shape := ⟨2, ![1, 128]⟩
abbrev S_ : Shape := ⟨0, ![]⟩
abbrev S45 : Shape := ⟨1, ![45]⟩
abbrev S15 : Shape := ⟨1, ![15]⟩
abbrev S1 : Shape := ⟨1, ![1]⟩

abbrev nBuf : Space → Nat
  | .hbm => 36
  | .vmem => 6
  | .smem => 0
  | _ => 0

abbrev bufTy : (tb : Table) → Fin (tcTables nBuf tb) → BufTy
  | .hbm, ⟨0, _⟩ => ⟨S20000000, .i32⟩
  | .hbm, ⟨1, _⟩ => ⟨S20000000, .i32⟩
  | .hbm, ⟨2, _⟩ => ⟨S20000000, .f32⟩
  | .hbm, ⟨3, _⟩ => ⟨S20000000, .i1⟩
  | .hbm, ⟨4, _⟩ => ⟨S20000000, .bf16⟩
  | .hbm, ⟨5, _⟩ => ⟨S2x25x3125x128, .f32⟩
  | .hbm, ⟨6, _⟩ => ⟨S2x25x3125x128, .bf16⟩
  | .hbm, ⟨7, _⟩ => ⟨S2x45x128, .f32⟩
  | .hbm, ⟨8, _⟩ => ⟨S_, .f32⟩
  | .hbm, ⟨9, _⟩ => ⟨S45x128, .f32⟩
  | .hbm, ⟨10, _⟩ => ⟨S_, .f32⟩
  | .hbm, ⟨11, _⟩ => ⟨S45, .f32⟩
  | .hbm, ⟨12, _⟩ => ⟨S15, .f32⟩
  | .hbm, ⟨13, _⟩ => ⟨S15, .f32⟩
  | .hbm, ⟨14, _⟩ => ⟨S15, .f32⟩
  | .hbm, ⟨15, _⟩ => ⟨S_, .f32⟩
  | .hbm, ⟨16, _⟩ => ⟨S15, .f32⟩
  | .hbm, ⟨17, _⟩ => ⟨S15, .f32⟩
  | .hbm, ⟨18, _⟩ => ⟨S_, .f32⟩
  | .hbm, ⟨19, _⟩ => ⟨S15, .f32⟩
  | .hbm, ⟨20, _⟩ => ⟨S15, .f32⟩
  | .hbm, ⟨21, _⟩ => ⟨S15, .f32⟩
  | .hbm, ⟨22, _⟩ => ⟨S15, .f32⟩
  | .hbm, ⟨23, _⟩ => ⟨S15, .f32⟩
  | .hbm, ⟨24, _⟩ => ⟨S15, .f32⟩
  | .hbm, ⟨25, _⟩ => ⟨S_, .f32⟩
  | .hbm, ⟨26, _⟩ => ⟨S15, .f32⟩
  | .hbm, ⟨27, _⟩ => ⟨S15, .i1⟩
  | .hbm, ⟨28, _⟩ => ⟨S15, .f32⟩
  | .hbm, ⟨29, _⟩ => ⟨S_, .f32⟩
  | .hbm, ⟨30, _⟩ => ⟨S_, .f32⟩
  | .hbm, ⟨31, _⟩ => ⟨S15, .f32⟩
  | .hbm, ⟨32, _⟩ => ⟨S15, .f32⟩
  | .hbm, ⟨33, _⟩ => ⟨S_, .f32⟩
  | .hbm, ⟨34, _⟩ => ⟨S_, .f32⟩
  | .hbm, ⟨35, _⟩ => ⟨S1, .f32⟩
  | .local _ .vmem, ⟨0, _⟩ => ⟨S1x1x3125x128, .f32⟩
  | .local _ .vmem, ⟨1, _⟩ => ⟨S1x1x3125x128, .f32⟩
  | .local _ .vmem, ⟨2, _⟩ => ⟨S1x1x3125x128, .bf16⟩
  | .local _ .vmem, ⟨3, _⟩ => ⟨S1x1x3125x128, .bf16⟩
  | .local _ .vmem, ⟨4, _⟩ => ⟨S1x45x128, .f32⟩
  | .local _ .vmem, ⟨5, _⟩ => ⟨S1x45x128, .f32⟩
  | _, _ => ⟨S20000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 25], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x3125x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3125x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x45x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S20000000_S2x25x3125x128 : S20000000.ShapeCasts S2x25x3125x128
  inb_S1x45x128_S1x45x128_0_0_0 : ∀ a, (![0, 0, 0] : Fin 3 → Nat) a + S1x45x128.size a ≤ S1x45x128.size a
  h_S1x45x128 : 0 < S1x45x128.numel
  shapeCasts_S1x45x128_S45x128 : S1x45x128.ShapeCasts S45x128
  shapeCasts_S45x128_S1x45x128 : S45x128.ShapeCasts S1x45x128
  inb_S1x1x3125x128_S1x1x3125x128_0_0_0_0 : ∀ a, (![0, 0, 0, 0] : Fin 4 → Nat) a + S1x1x3125x128.size a ≤ S1x1x3125x128.size a
  h_S1x1x3125x128 : 0 < S1x1x3125x128.numel
  shapeCasts_S1x1x3125x128_S3125x128 : S1x1x3125x128.ShapeCasts S3125x128
  bitsLt_bf16_f32 : FTy.bits .bf16 < FTy.bits .f32
  natLt_1_32 : 1 < 32
  reduces_S3125x128_S128 : S3125x128.Reduces [0] S128
  shapeCasts_S128_S1x128 : S128.ShapeCasts S1x128
  concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S45x128_d0 : Shape.Concatenates (S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: S1x128 :: []) S45x128 0
  reducesTo_S2x45x128_S45x128_d0 : S2x45x128.ReducesTo [0] S45x128
  h_S_ : 0 < S_.numel
  reducesTo_S45x128_S45_d1 : S45x128.ReducesTo [1] S45
  slices_S45_S15_0 : S45.Slices ![0] S15
  slices_S45_S15_15 : S45.Slices ![15] S15
  slices_S45_S15_30 : S45.Slices ![30] S15
  bcast_S_S15 : S_.BroadcastsInDim S15 (![] : Fin 0 → Fin S15.rank)
  reducesTo_S15_S_d0 : S15.ReducesTo [0] S_
  shapeCasts_S_S1 : S_.ShapeCasts S1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x3125x128.size a ≤ S2x25x3125x128.size a
  hwx0_0 : ∀ i : grid0.Coords, EltTy.bits .f32 = 32 ∨ (Rect.block (s := S2x25x3125x128) S1x1x3125x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x3125x128.size a ≤ S2x25x3125x128.size a
  hwx0_1 : ∀ i : grid0.Coords, EltTy.bits .bf16 = 32 ∨ (Rect.block (s := S2x25x3125x128) S1x1x3125x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x45x128.size a ≤ S2x45x128.size a
  hwx0_2 : ∀ i : grid0.Coords, EltTy.bits .f32 = 32 ∨ (Rect.block (s := S2x45x128) S1x45x128.size (cc0_transform_2 i) (hinb0_2 i)).WholeWords (EltTy.packing .f32)

variable [Facts₀]

abbrev win0_0 : Pipeline.Window sig grid0 :=
  Pipeline.Window.ofSpec (Memref.whole main_v2) S1x1x3125x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x1x3125x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x45x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S20000000 : Shape := ⟨1, ![20000000]⟩
abbrev S_ : Shape := ⟨0, ![]⟩
abbrev S15 : Shape := ⟨1, ![15]⟩
abbrev S20000000x1 : Shape := ⟨2, ![20000000, 1]⟩
abbrev S1 : Shape := ⟨1, ![1]⟩

abbrev nBuf : Space → Nat
  | .hbm => 56
  | .vmem => 0
  | .smem => 0
  | _ => 0

abbrev bufTy : (tb : Table) → Fin (tcTables nBuf tb) → BufTy
  | .hbm, ⟨0, _⟩ => ⟨S20000000, .i32⟩
  | .hbm, ⟨1, _⟩ => ⟨S20000000, .i32⟩
  | .hbm, ⟨2, _⟩ => ⟨S20000000, .f32⟩
  | .hbm, ⟨3, _⟩ => ⟨S20000000, .i1⟩
  | .hbm, ⟨4, _⟩ => ⟨S20000000, .f32⟩
  | .hbm, ⟨5, _⟩ => ⟨S_, .f32⟩
  | .hbm, ⟨6, _⟩ => ⟨S20000000, .f32⟩
  | .hbm, ⟨7, _⟩ => ⟨S20000000, .f32⟩
  | .hbm, ⟨8, _⟩ => ⟨S20000000, .f32⟩
  | .hbm, ⟨9, _⟩ => ⟨S20000000, .i32⟩
  | .hbm, ⟨10, _⟩ => ⟨S_, .i32⟩
  | .hbm, ⟨11, _⟩ => ⟨S20000000, .i32⟩
  | .hbm, ⟨12, _⟩ => ⟨S20000000, .i32⟩
  | .hbm, ⟨13, _⟩ => ⟨S_, .i32⟩
  | .hbm, ⟨14, _⟩ => ⟨S20000000, .i32⟩
  | .hbm, ⟨15, _⟩ => ⟨S20000000, .i1⟩
  | .hbm, ⟨16, _⟩ => ⟨S_, .i32⟩
  | .hbm, ⟨17, _⟩ => ⟨S_, .i32⟩
  | .hbm, ⟨18, _⟩ => ⟨S20000000, .i32⟩
  | .hbm, ⟨19, _⟩ => ⟨S20000000, .i32⟩
  | .hbm, ⟨20, _⟩ => ⟨S20000000, .f32⟩
  | .hbm, ⟨21, _⟩ => ⟨S_, .f32⟩
  | .hbm, ⟨22, _⟩ => ⟨S15, .f32⟩
  | .hbm, ⟨23, _⟩ => ⟨S20000000x1, .i32⟩
  | .hbm, ⟨24, _⟩ => ⟨S15, .f32⟩
  | .hbm, ⟨25, _⟩ => ⟨S20000000, .f32⟩
  | .hbm, ⟨26, _⟩ => ⟨S_, .f32⟩
  | .hbm, ⟨27, _⟩ => ⟨S15, .f32⟩
  | .hbm, ⟨28, _⟩ => ⟨S20000000x1, .i32⟩
  | .hbm, ⟨29, _⟩ => ⟨S15, .f32⟩
  | .hbm, ⟨30, _⟩ => ⟨S20000000, .f32⟩
  | .hbm, ⟨31, _⟩ => ⟨S_, .f32⟩
  | .hbm, ⟨32, _⟩ => ⟨S15, .f32⟩
  | .hbm, ⟨33, _⟩ => ⟨S20000000x1, .i32⟩
  | .hbm, ⟨34, _⟩ => ⟨S15, .f32⟩
  | .hbm, ⟨35, _⟩ => ⟨S_, .f32⟩
  | .hbm, ⟨36, _⟩ => ⟨S15, .f32⟩
  | .hbm, ⟨37, _⟩ => ⟨S15, .f32⟩
  | .hbm, ⟨38, _⟩ => ⟨S_, .f32⟩
  | .hbm, ⟨39, _⟩ => ⟨S15, .f32⟩
  | .hbm, ⟨40, _⟩ => ⟨S15, .f32⟩
  | .hbm, ⟨41, _⟩ => ⟨S15, .f32⟩
  | .hbm, ⟨42, _⟩ => ⟨S15, .f32⟩
  | .hbm, ⟨43, _⟩ => ⟨S15, .f32⟩
  | .hbm, ⟨44, _⟩ => ⟨S15, .f32⟩
  | .hbm, ⟨45, _⟩ => ⟨S_, .f32⟩
  | .hbm, ⟨46, _⟩ => ⟨S15, .f32⟩
  | .hbm, ⟨47, _⟩ => ⟨S15, .i1⟩
  | .hbm, ⟨48, _⟩ => ⟨S15, .f32⟩
  | .hbm, ⟨49, _⟩ => ⟨S_, .f32⟩
  | .hbm, ⟨50, _⟩ => ⟨S_, .f32⟩
  | .hbm, ⟨51, _⟩ => ⟨S15, .f32⟩
  | .hbm, ⟨52, _⟩ => ⟨S15, .f32⟩
  | .hbm, ⟨53, _⟩ => ⟨S_, .f32⟩
  | .hbm, ⟨54, _⟩ => ⟨S_, .f32⟩
  | .hbm, ⟨55, _⟩ => ⟨S1, .f32⟩
  | _, _ => ⟨S20000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_7 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_call1_v0 : Ref sig .tc := ⟨.hbm, 50, rfl⟩
abbrev main_call1_v1 : Ref sig .tc := ⟨.hbm, 51, rfl⟩
abbrev main_v34 : Ref sig .tc := ⟨.hbm, 52, rfl⟩
abbrev main_cst_9 : Ref sig .tc := ⟨.hbm, 53, rfl⟩
abbrev main_v35 : Ref sig .tc := ⟨.hbm, 54, rfl⟩
abbrev main_v36 : Ref sig .tc := ⟨.hbm, 55, rfl⟩

abbrev nD : Nat := 1
abbrev τ : Topo := Topo.v7x

variable {F : FTy → Type} [FloatOps F]

class Facts₀ : Prop where
  bcast_S_S20000000 : S_.BroadcastsInDim S20000000 (![] : Fin 0 → Fin S20000000.rank)
  bcast_S_S15 : S_.BroadcastsInDim S15 (![] : Fin 0 → Fin S15.rank)
  bcast_S20000000_S20000000x1_0 : S20000000.BroadcastsInDim S20000000x1 (![0] : Fin 1 → Fin S20000000x1.rank)
  reducesTo_S15_S_d0 : S15.ReducesTo [0] S_
  h_S_ : 0 < S_.numel
  shapeCasts_S_S1 : S_.ShapeCasts S1
  scatter_S15_S20000000x1_S20000000_n_0_0_1_wf : ScatterDims.WF S15 S20000000x1 S20000000 [] [0] [0] 1

variable [Facts₀]

def scatter_S15_S20000000x1_S20000000_n_0_0_1 : ScatterDims S15 S20000000x1 S20000000 where
  updateWindowDims := []
  insertedWindowDims := [0]
  scatterDimsToOperandDims := [0]
  indexVectorDim := 1
  wf := scatter_S15_S20000000x1_S20000000_n_0_0_1_wf

class Facts : Prop extends Facts₀ where

variable [Facts]
-- ==== Proof.Spec.lean ====
/-
  The calibration error both programs compute, as one function of the three argument arrays.

  A confidence `x` falls in bin `⌈15·x⌉ - 1` (formed on 32-bit words, as both programs form it); bins 0 … 14 are
  kept, every other word is no bin.  Per bin three sums over ALL samples are taken: how many samples fall in it, the
  sum of their confidences, and the sum of their hit flags (a hit: prediction = target).  From the three vectors of
  fifteen sums the result is  Σ_b [count_b > 0] · |conf_b / max(count_b, 1) − hit_b / max(count_b, 1)| · count_b / N.
-/
import Idealize.ShloMosaic.PureOps.Ideal
import Idealize.ShloMosaic.PureOps.Ideal.Laws
import Idealize.ShloMosaic.Lib.ValueIdx

noncomputable section

namespace Cert.Ece

open Idealize.ShloMosaic Idealize.ShloMosaic.ValueIdx

abbrev SN : Shape := ⟨1, ![20000000]⟩
abbrev S15 : Shape := ⟨1, ![15]⟩
abbrev S1 : Shape := ⟨1, ![1]⟩
abbrev S0 : Shape := ⟨0, ![]⟩

theorem bcast15 : S0.BroadcastsInDim S15 (![] : Fin 0 → Fin S15.rank) := by decide
theorem red15 : S15.ReducesTo [0] S0 := by decide
theorem pos0 : 0 < S0.numel := by decide
theorem cast01 : S0.ShapeCasts S1 := by decide

/-- The bin word of a confidence: `⌈15·x⌉` converted to a 32-bit integer, less one (wrapping). -/
def binWord (x : EReal) : BitVec 32 :=
  IntOp.subi (Ideal.fptosi 32 (Ideal.liftRound Int.ceil (x * Ideal.ofBits .f32 0x41700000#32))) 1#32

/-- What a sample in the bin contributes to sum number `q`: one, its confidence, its hit flag. -/
def pick (q : Fin 3) (x a : EReal) : EReal :=
  match q with
  | 0 => 1
  | 1 => x
  | 2 => a

/-- A sample's contribution to sum `q` of bin `b`: `pick` when its bin word is `b`, else nothing. -/
def term (q : Fin 3) (b : Fin 15) (x a : EReal) : EReal :=
  if binWord x = BitVec.ofNat 32 b.val then pick q x a else 0

/-- The hit flag of a sample, as an extended real: 1 when prediction and target are the same word, else 0. -/
def hit (p t : BitVec 32) : EReal := (((IntOp.cmpi .eq p t).toNat : ℝ) : EReal)

/-- Sum `q` over all samples, bin by bin. -/
def bins (p t : IVec SN 32) (x : SN.Idx → EReal) (q : Fin 3) : FVec Ideal S15 .f32 :=
  fun j => ∑ n : SN.Idx, term q (j 0) (x n) (hit (p n) (t n))

/-- The error from the three vectors of per-bin sums (counts, confidence sums, hit sums). -/
def eceTail (cnt cs hs : FVec Ideal S15 .f32) : FVec Ideal S1 .f32 :=
  shapeCast S1 (Host.reduceAdd (F := Ideal)
    (select (cmpf .ogt cnt (broadcastInDim S15 ![] bcast15 (constant (F := Ideal) S0 .f32 0x00000000#32)))
      (mulf
        (Host.absf (subf
          (Host.divf cs (maximumf cnt (broadcastInDim S15 ![] bcast15 (constant (F := Ideal) S0 .f32 0x3F800000#32))))
          (Host.divf hs (maximumf cnt (broadcastInDim S15 ![] bcast15 (constant (F := Ideal) S0 .f32 0x3F800000#32))))))
        (Host.divf cnt (broadcastInDim S15 ![] bcast15 (constant (F := Ideal) S0 .f32 0x4B989680#32))))
      (broadcastInDim S15 ![] bcast15 (constant (F := Ideal) S0 .f32 0x00000000#32)))
    (constant (F := Ideal) S0 .f32 0x00000000#32) red15 pos0) cast01

/-- The whole result. -/
def ece (p t : IVec SN 32) (x : SN.Idx → EReal) : FVec Ideal S1 .f32 :=
  eceTail (bins p t x 0) (bins p t x 1) (bins p t x 2)

end Cert.Ece

end
-- ==== Proof.KernelRows.lean ====
/-
  One grid point's contribution, row by row.

  The body forms the bin word of every confidence of its [3125, 128] block and, for each of the fifteen bins, three
  lane-wise column sums over the block's 3125 rows: of the bin's mask read as 0/1, of the confidences under the mask, and
  of the hit flags under the mask.  The 45 one-row results are stacked: rows 0–14 the counts, 15–29 the confidence sums,
  30–44 the hit sums.  Here the stack is written as ONE family of rows indexed by the row number, and read at an entry:
  row 15·q + b, lane l is the sum over the block's rows r of the sample (r, l)'s contribution to sum q of bin b.
-/
import proofs.«106111_j48567490183751_2_alg».proof.Proof.Spec
import proofs.«106111_j48567490183751_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen Cert.KernelIdeal.Facts Idealize.ShloMosaic Idealize.ShloMosaic.ValueIdx

variable {F : FTy → Type} [FloatOps F]

/-- The mask of bin word `b`: which entries of the block have that bin word. -/
def mask (w : IVec S3125x128 32) (b : BitVec 32) : IVec S3125x128 1 := cmpi .eq w (broadcast S3125x128 b)

/-- The column sums of the mask read as 0/1, kept as one row. -/
def countRow (w : IVec S3125x128 32) (b : BitVec 32) : FVec F S1x128 .f32 :=
  shapeCast S1x128 (multiReduction .add [0] S128 (sitofp .f32 (extui 32 (mask w b) natLt_1_32)) 0x00000000#32
    reduces_S3125x128_S128 (.inl rfl) rfl) shapeCasts_S128_S1x128

/-- The column sums of `v` under the mask (zero elsewhere), kept as one row. -/
def pickRow (v : FVec F S3125x128 .f32) (w : IVec S3125x128 32) (b : BitVec 32) : FVec F S1x128 .f32 :=
  shapeCast S1x128 (multiReduction .add [0] S128
    (select (mask w b) v (broadcast S3125x128 (Scalar.ofBits .f32 0x00000000#32))) 0x00000000#32
    reduces_S3125x128_S128 (.inl rfl) rfl) shapeCasts_S128_S1x128

/-- Row `n` of the stack: counts, then confidence sums, then hit sums, fifteen bins each. -/
def row (x a : FVec F S3125x128 .f32) (w : IVec S3125x128 32) (n : Fin 45) : FVec F S1x128 .f32 :=
  if n.val < 15 then countRow w (BitVec.ofNat 32 n.val)
  else if n.val < 30 then pickRow x w (BitVec.ofNat 32 (n.val - 15))
  else pickRow a w (BitVec.ofNat 32 (n.val - 30))

/-- The 45 rows stacked along axis 0. -/
def stack (x a : FVec F S3125x128 .f32) (w : IVec S3125x128 32) : FVec F S45x128 .f32 :=
  concatenate S45x128 0 (List.ofFn fun n : Fin 45 => (⟨S1x128, row x a w n⟩ : (s : Shape) × (s.Idx → F .f32)))
    concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S45x128_d0

/-- The body's stacked value of the two loaded blocks, as the body's payloads compose it. -/
def bodyStack (x0 : Vec F S1x1x3125x128 .f32) (x1 : Vec F S1x1x3125x128 .bf16) : FVec F S45x128 .f32 :=
  k0_pay5 (k0_pay12 x0) (k0_pay13 x0) (k0_pay14 x0 x1) (k0_pay16 x0) (k0_pay18 (k0_pay17 x0))
    (k0_pay19 (k0_pay9 x1) (k0_pay15 x0)) (k0_pay21 (k0_pay10 x0)) (k0_pay22 (k0_pay8 x0) (k0_pay10 x0))
    (k0_pay23 (k0_pay9 x1) (k0_pay10 x0)) (k0_pay25 (k0_pay10 x0)) (k0_pay26 (k0_pay8 x0) (k0_pay10 x0))
    (k0_pay27 (k0_pay9 x1) (k0_pay10 x0)) (k0_pay29 (k0_pay10 x0))
    (k0_pay31 (k0_pay30 (k0_pay8 x0) (k0_pay10 x0))) (k0_pay32 (k0_pay9 x1) (k0_pay28 (k0_pay10 x0)))
    (k0_pay34 (k0_pay10 x0)) (k0_pay35 (k0_pay8 x0) (k0_pay10 x0)) (k0_pay36 (k0_pay9 x1) (k0_pay10 x0))
    (k0_pay38 (k0_pay10 x0)) (k0_pay39 (k0_pay8 x0) (k0_pay10 x0)) (k0_pay40 (k0_pay9 x1) (k0_pay10 x0))
    (k0_pay42 (k0_pay10 x0))
    (k0_pay44 (k0_pay43 (k0_pay8 x0) (k0_pay10 x0))) (k0_pay45 (k0_pay9 x1) (k0_pay41 (k0_pay10 x0)))
    (k0_pay47 (k0_pay10 x0)) (k0_pay48 (k0_pay8 x0) (k0_pay10 x0)) (k0_pay49 (k0_pay9 x1) (k0_pay10 x0))
    (k0_pay51 (k0_pay10 x0)) (k0_pay52 (k0_pay8 x0) (k0_pay10 x0)) (k0_pay53 (k0_pay9 x1) (k0_pay10 x0))
    (k0_pay55 (k0_pay10 x0))
    (k0_pay57 (k0_pay56 (k0_pay8 x0) (k0_pay10 x0))) (k0_pay58 (k0_pay9 x1) (k0_pay54 (k0_pay10 x0)))
    (k0_pay60 (k0_pay10 x0)) (k0_pay61 (k0_pay8 x0) (k0_pay10 x0)) (k0_pay62 (k0_pay9 x1) (k0_pay10 x0))
    (k0_pay64 (k0_pay10 x0)) (k0_pay65 (k0_pay8 x0) (k0_pay10 x0)) (k0_pay66 (k0_pay9 x1) (k0_pay10 x0))
    (k0_pay68 (k0_pay10 x0))
    (k0_pay69 (k0_pay8 x0) (k0_pay10 x0)) (k0_pay1 (k0_pay9 x1) (k0_pay67 (k0_pay10 x0))) (k0_pay2 (k0_pay10 x0))
    (k0_pay3 (k0_pay8 x0) (k0_pay2 (k0_pay10 x0))) (k0_pay4 (k0_pay9 x1) (k0_pay2 (k0_pay10 x0)))

set_option maxRecDepth 65536 in
/-- The payloads' composition IS the stack of the uniform rows: every row's payload unfolds to its uniform form. -/
theorem bodyStack_eq (x0 : Vec F S1x1x3125x128 .f32) (x1 : Vec F S1x1x3125x128 .bf16) :
    bodyStack x0 x1 = stack (k0_pay8 x0) (k0_pay9 x1) (k0_pay10 x0) := rfl

/-- An entry of the stack is the entry of its row: row `k`, lane `l`. -/
theorem stack_apply (x a : FVec F S3125x128 .f32) (w : IVec S3125x128 32) (k : Fin 45) (l : Fin 128) :
    stack x a w (ix2 k l) = row x a w k (ix2 (0 : Fin 1) l) :=
  concatenate_ofFn_unit_apply (t := S45x128) (s₁ := S1x128) (0 : Fin 2) (fun n => row x a w n) _ rfl rfl (ix2 k l) k rfl
    (ix2 (0 : Fin 1) l) (by
      intro b hb
      match b with
      | ⟨0, _⟩ => exact absurd rfl hb
      | ⟨1, _⟩ => rfl)

/-! ## The rows at the ideal values -/

/-- The equality test of two words is the bit 1 when they are equal, -/
theorem cmpi_eq_one {u v : BitVec 32} (h : u = v) : IntOp.cmpi .eq u v = 1#1 := by
  unfold IntOp.cmpi
  rw [show (u == v) = true from beq_iff_eq.mpr h]
  rfl

/-- and the bit 0 when they differ. -/
theorem cmpi_eq_zero {u v : BitVec 32} (h : ¬u = v) : IntOp.cmpi .eq u v = 0#1 := by
  unfold IntOp.cmpi
  rw [show (u == v) = false from beq_eq_false_iff_ne.mpr h]
  rfl

/-- A mask bit read as a number: 1 where the two words are equal, 0 elsewhere. -/
theorem maskBit_toReal (u v : BitVec 32) :
    ((((IntOp.cmpi .eq u v).setWidth 32).toInt : ℝ) : EReal) = if u = v then 1 else 0 := by
  by_cases h : u = v
  · have e : IntOp.cmpi .eq u v = 1#1 := cmpi_eq_one h
    rw [if_pos h, e]
    have : ((1#1 : BitVec 1).setWidth 32).toInt = 1 := by decide
    rw [this]; norm_num
  · have e : IntOp.cmpi .eq u v = 0#1 := cmpi_eq_zero h
    rw [if_neg h, e]
    have : ((0#1 : BitVec 1).setWidth 32).toInt = 0 := by decide
    rw [this]; norm_num

/-- A value selected under a mask bit. -/
theorem maskBit_select {α : Type} (u v : BitVec 32) (y z : α) :
    Scalar.select (IntOp.cmpi .eq u v) y z = if u = v then y else z := by
  by_cases h : u = v
  · rw [if_pos h, cmpi_eq_one h]; exact select_one _ _
  · rw [if_neg h, cmpi_eq_zero h]; exact select_zero _ _

/-- The index a column sum over the rows inserts: row `r` of column `l`. -/
theorem lift_rows (l : Fin 128) (r : Fin 3125) :
    reduces_S3125x128_S128.lift (ix1 l) r = ix2 r l := by
  funext d
  match d with
  | ⟨0, _⟩ => rfl
  | ⟨1, _⟩ => rfl

/-- A count row at lane `l`: how many rows of the column have the bin word. -/
theorem countRow_apply (w : IVec S3125x128 32) (b : BitVec 32) (l : Fin 128) :
    countRow (F := Ideal) w b (ix2 (0 : Fin 1) l) = ∑ r : Fin 3125, (if w (ix2 r l) = b then (1 : EReal) else 0) := by
  unfold countRow
  rw [shapeCast_a_1a_apply]
  refine (Ideal.multiReduction_add_single (φ := .f32) _ _ reduces_S3125x128_S128 _ _ (ix1 l)).trans ?_
  show (∑ r : Fin 3125, sitofp (F := Ideal) .f32 (extui 32 (mask w b) natLt_1_32) (reduces_S3125x128_S128.lift (ix1 l) r)) = _
  refine Finset.sum_congr rfl fun r _ => ?_
  rw [lift_rows]
  exact maskBit_toReal _ _

/-- A masked row at lane `l`: the sum of the column's entries whose bin word it is. -/
theorem pickRow_apply (v : FVec Ideal S3125x128 .f32) (w : IVec S3125x128 32) (b : BitVec 32) (l : Fin 128) :
    pickRow (F := Ideal) v w b (ix2 (0 : Fin 1) l) = ∑ r : Fin 3125, (if w (ix2 r l) = b then v (ix2 r l) else 0) := by
  unfold pickRow
  rw [shapeCast_a_1a_apply]
  refine (Ideal.multiReduction_add_single (φ := .f32) _ _ reduces_S3125x128_S128 _ _ (ix1 l)).trans ?_
  show (∑ r : Fin 3125, select (mask w b) v (broadcast S3125x128 (Scalar.ofBits (F := Ideal) .f32 0x00000000#32))
    (reduces_S3125x128_S128.lift (ix1 l) r)) = _
  refine Finset.sum_congr rfl fun r _ => ?_
  rw [lift_rows]
  refine (maskBit_select _ _ _ _).trans ?_
  show (if w (ix2 r l) = b then v (ix2 r l) else Ideal.ofBits .f32 0x00000000#32) = _
  rw [Ideal.ofBits_zero_f32]

/-- Row 15·q + b at lane `l`: the sum over the column of each entry's contribution to sum `q` of bin `b`. -/
theorem row_apply (x a : FVec Ideal S3125x128 .f32) (w : IVec S3125x128 32) (k : Fin 45) (q : Fin 3) (b : Fin 15)
    (hk : k.val = 15 * q.val + b.val) (l : Fin 128) :
    row (F := Ideal) x a w k (ix2 (0 : Fin 1) l)
      = ∑ r : Fin 3125, (if w (ix2 r l) = BitVec.ofNat 32 b.val then Cert.Ece.pick q (x (ix2 r l)) (a (ix2 r l)) else 0) := by
  have hb := b.isLt
  unfold row
  match q, hk with
  | ⟨0, _⟩, hk =>
    have e : k.val = b.val := by simpa using hk
    rw [if_pos (show k.val < 15 by omega), e]
    exact countRow_apply w _ l
  | ⟨1, _⟩, hk =>
    have e : k.val - 15 = b.val := by simp at hk; omega
    rw [if_neg (show ¬k.val < 15 by simp at hk; omega), if_pos (show k.val < 30 by simp at hk; omega), e]
    exact pickRow_apply x w _ l
  | ⟨2, _⟩, hk =>
    have e : k.val - 30 = b.val := by simp at hk; omega
    rw [if_neg (show ¬k.val < 15 by simp at hk; omega), if_neg (show ¬k.val < 30 by simp at hk; omega), e]
    exact pickRow_apply a w _ l

/-! ## The loaded blocks behind the rows -/

/-- The [1,1,3125,128] block cast to [3125,128] reads (r, l) at (0, 0, r, l). -/
theorem block_apply {α : Type} (x : S1x1x3125x128.Idx → α) (r : Fin 3125) (l : Fin 128) :
    shapeCast S3125x128 x shapeCasts_S1x1x3125x128_S3125x128 (ix2 r l) = x (ix4 (0 : Fin 1) (0 : Fin 1) r l) :=
  shapeCast_apply x _ _ _ (by
    rw [Shape.rowMajor_val_four, Shape.rowMajor_val_two]
    show ((0 * 1 + 0) * 3125 + r.val) * 128 + l.val = r.val * 128 + l.val
    simp only [Nat.zero_mul, Nat.zero_add])

/-- The stacked value of one grid point's two blocks, at row 15·q + b and lane `l`: the sum over the block's rows
    of the sample's contribution (its confidence from the first block, its hit flag from the second). -/
theorem bodyStack_apply (x0 : Vec Ideal S1x1x3125x128 .f32) (x1 : Vec Ideal S1x1x3125x128 .bf16) (k : Fin 45) (q : Fin 3)
    (b : Fin 15) (hk : k.val = 15 * q.val + b.val) (l : Fin 128) :
    bodyStack (F := Ideal) x0 x1 (ix2 k l)
      = ∑ r : Fin 3125, Cert.Ece.term q b (x0 (ix4 (0 : Fin 1) (0 : Fin 1) r l)) (x1 (ix4 (0 : Fin 1) (0 : Fin 1) r l)) := by
  rw [bodyStack_eq, stack_apply, row_apply _ _ _ k q b hk l]
  refine Finset.sum_congr rfl fun r _ => ?_
  have e0 : k0_pay8 (F := Ideal) x0 (ix2 r l) = x0 (ix4 (0 : Fin 1) (0 : Fin 1) r l) := block_apply x0 r l
  have e1 : k0_pay9 (F := Ideal) x1 (ix2 r l) = x1 (ix4 (0 : Fin 1) (0 : Fin 1) r l) := block_apply x1 r l
  have ew : k0_pay10 (F := Ideal) x0 (ix2 r l) = Cert.Ece.binWord (x0 (ix4 (0 : Fin 1) (0 : Fin 1) r l)) := by
    rw [← e0]; rfl
  rw [e0, e1, ew]
  rfl

end Cert.KernelIdeal.Rows

end
-- ==== Proof.KernelAcc.lean ====
/-
  What the output's staging buffer holds point by point, and the result array after the run.

  The grid is 2 halves × 25 chunks, visited half by half.  At a half's first chunk the body clears the output block and
  adds the chunk's stack of 45 rows; at every other chunk it adds the chunk's stack to what the block holds.  So after
  chunk i of a half the block holds the sum of the stacks of chunks 0 … i, and after the last chunk — the one point of
  the half at which the block is written back — the sum over all 25 chunks.  The two halves' blocks fill the
  [2, 45, 128] result array.
-/
import proofs.«106111_j48567490183751_2_alg».proof.Proof.KernelRows
import proofs.«106111_j48567490183751_2_alg».proof.Proof.Gen.KernelIdeal.Frame
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen Cert.KernelIdeal.Facts Cert.KernelIdeal.Rows

variable {F : FTy → Type} [FloatOps F]
variable (m : (ℓ : Loc nD τ sig) → Buf (Elt F) ℓ) (ρ : Dev nD → PrngReg)

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-! ## The two cases of the body as values -/

/-- A point that is not a half's first: the block ends at its contents `xo` plus the stack of the two input blocks. -/
theorem out_B (c : Dev nD) (i : grid0.Coords) (a2 : Memref sig .tc .vmem S1x1x3125x128 .f32) (h2 : a2.IsWhole)
    (a3 : Memref sig .tc .vmem S1x1x3125x128 .bf16) (h3 : a3.IsWhole) (a4 : Memref sig .tc .vmem S1x45x128 .f32) (h4 : a4.IsWhole)
    (hc : ¬cond0_0 i) (x0 : Vec F S1x1x3125x128 .f32) (x1 : Vec F S1x1x3125x128 .bf16) (xo : Vec F S1x45x128 .f32) :
    out0_B_2 c i a2 h2 a3 h3 a4 h4 hc x0 x1 xo = k0_pay6 (bodyStack x0 x1) xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x1x3125x128) hz4,
    View.ld_unit_zero (S := S1x45x128) hz3]
  rfl

/-- A half's first point: the block is cleared, read back, and ends at the zero block plus the stack. -/
theorem out_A (c : Dev nD) (i : grid0.Coords) (a2 : Memref sig .tc .vmem S1x1x3125x128 .f32) (h2 : a2.IsWhole)
    (a3 : Memref sig .tc .vmem S1x1x3125x128 .bf16) (h3 : a3.IsWhole) (a4 : Memref sig .tc .vmem S1x45x128 .f32) (h4 : a4.IsWhole)
    (hc : cond0_0 i) (x0 : Vec F S1x1x3125x128 .f32) (x1 : Vec F S1x1x3125x128 .bf16) :
    out0_A_2 c i a2 h2 a3 h3 a4 h4 hc x0 x1 = k0_pay6 (bodyStack x0 x1) k0_pay7 := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x45x128) hz3, View.readCov_unit_zero (S := S1x45x128) _ hz3]
  simp only [View.readAt_eq_ld, h2.read_unread, h3.read_unread, View.ld_unit_zero (S := S1x1x3125x128) hz4,
    View.ld_unit_zero (S := S1x45x128) hz3]
  rfl

/-! ## The running block -/

/-- The block after point `n`: restarted from the zero block at a half's first point, continued otherwise. -/
def chain (c : Dev nD) : (n : ℕ) → n < cfg0.N → Vec F S1x45x128 .f32
  | 0, h => k0_pay6 (bodyStack (iblk m c 0 ⟨0, h⟩) (iblk m c 1 ⟨0, h⟩)) k0_pay7
  | n + 1, h =>
    if (n + 1) % 25 = 0 then k0_pay6 (bodyStack (iblk m c 0 ⟨n + 1, h⟩) (iblk m c 1 ⟨n + 1, h⟩)) k0_pay7
    else k0_pay6 (bodyStack (iblk m c 0 ⟨n + 1, h⟩) (iblk m c 1 ⟨n + 1, h⟩)) (chain c n (Nat.lt_of_succ_lt h))

/-- The staging buffer's contents after point `n` are the running block: by induction on the point. -/
theorem outsAt_eq (c : Dev nD) : ∀ (n : ℕ) (h : n < cfg0.N), outsAt0 m c n h = chain m c n h
  | 0, h => (outsAt0_A m c ⟨0, h⟩ rfl).trans (out_A ..)
  | n + 1, h => by
    by_cases h0 : (n + 1) % 25 = 0
    · rw [outsAt0_A m c ⟨n + 1, h⟩ h0, out_A, chain, if_pos h0]
    · rw [outsAt0_B m c ⟨n + 1, h⟩ h0, out_B, chain, if_neg h0]
      show k0_pay6 _ (outsAt0 m c n _) = k0_pay6 _ (chain m c n _)
      rw [outsAt_eq c n]

/-! ## The running block at the ideal values -/

section Ideal

variable (mI : (ℓ : Loc nD τ sig) → Buf (Elt Ideal) ℓ)

/-- The accumulate step at an entry: the block's entry plus the stack's. -/
theorem pay6_apply (s : FVec Ideal S45x128 .f32) (xo : Vec Ideal S1x45x128 .f32) (k : Fin 45) (l : Fin 128) :
    k0_pay6 (F := Ideal) s xo (ix3 (0 : Fin 1) k l) = xo (ix3 (0 : Fin 1) k l) + s (ix2 k l) := by
  unfold k0_pay6
  rw [shapeCast_ab_1ab_apply]
  show shapeCast S45x128 xo shapeCasts_S1x45x128_S45x128 (ix2 k l) + s (ix2 k l) = _
  rw [shapeCast_1ab_ab_apply]

/-- The cleared block is zero at every entry. -/
theorem pay7_apply (k : Fin 45) (l : Fin 128) : k0_pay7 (F := Ideal) (ix3 (0 : Fin 1) k l) = 0 := by
  unfold k0_pay7
  rw [shapeCast_ab_1ab_apply]
  exact Ideal.ofBits_zero_f32

/-- The stack of point `n`'s two input blocks at row `k`, lane `l` (zero past the grid). -/
def ptStack (c : Dev nD) (n : ℕ) (k : Fin 45) (l : Fin 128) : EReal :=
  if h : n < cfg0.N then bodyStack (F := Ideal) (iblk mI c 0 ⟨n, h⟩) (iblk mI c 1 ⟨n, h⟩) (ix2 k l) else 0

theorem ptStack_of_lt (c : Dev nD) (n : ℕ) (h : n < cfg0.N) (k : Fin 45) (l : Fin 128) :
    ptStack mI c n k l = bodyStack (F := Ideal) (iblk mI c 0 ⟨n, h⟩) (iblk mI c 1 ⟨n, h⟩) (ix2 k l) := dif_pos h

/-- After point `n` the block's entry is the sum of the stacks of the half's points up to `n`. -/
theorem chain_apply (c : Dev nD) (k : Fin 45) (l : Fin 128) : ∀ (n : ℕ) (h : n < cfg0.N),
    chain (F := Ideal) mI c n h (ix3 (0 : Fin 1) k l) = ∑ j ∈ Finset.range (n % 25 + 1), ptStack mI c (n - n % 25 + j) k l
  | 0, h => by
    rw [chain, pay6_apply, pay7_apply, zero_add, ← ptStack_of_lt mI c 0 h]
    simp
  | n + 1, h => by
    by_cases h0 : (n + 1) % 25 = 0
    · rw [chain, if_pos h0, pay6_apply, pay7_apply, zero_add, ← ptStack_of_lt mI c (n + 1) h, h0]
      simp
    · have e1 : (n + 1) % 25 = n % 25 + 1 := by omega
      have e2 : n + 1 - (n % 25 + 1) = n - n % 25 := by omega
      have e3 : n - n % 25 + (n % 25 + 1) = n + 1 := by have := Nat.mod_le n 25; omega
      rw [chain, if_neg h0, pay6_apply, chain_apply c k l n, ← ptStack_of_lt mI c (n + 1) h, e1, e2,
        Finset.sum_range_succ _ (n % 25 + 1), e3]

end Ideal

/-! ## The windows' blocks in the arrays -/

/-- The printed index maps, decided over the grid: point `t` is chunk `t % 25` of half `t / 25`; the two input
    windows read that chunk, the output window the half's one block. -/
theorem idx_facts : ∀ t : Fin cfg0.N,
    win0_0.index t (0 : Fin 4) = t.val / 25 ∧ win0_0.index t (1 : Fin 4) = t.val % 25
    ∧ win0_0.index t (2 : Fin 4) = 0 ∧ win0_0.index t (3 : Fin 4) = 0
    ∧ win0_1.index t (0 : Fin 4) = t.val / 25 ∧ win0_1.index t (1 : Fin 4) = t.val % 25
    ∧ win0_1.index t (2 : Fin 4) = 0 ∧ win0_1.index t (3 : Fin 4) = 0
    ∧ win0_2.index t (0 : Fin 3) = t.val / 25 ∧ win0_2.index t (1 : Fin 3) = 0 ∧ win0_2.index t (2 : Fin 3) = 0 :=
  (by decide +kernel : ∀ t : Fin grid0.N, _)

/-- The confidences' block at point `t` reads the reshaped array at (half, chunk, row, lane). -/
theorem iblk0_apply (c : Dev nD) (t : Fin cfg0.N) (g : Fin 2) (i : Fin 25) (hg : t.val / 25 = g.val) (hi : t.val % 25 = i.val)
    (r : Fin 3125) (l : Fin 128) :
    (iblk m c 0 t : Vec F S1x1x3125x128 .f32) (ix4 (0 : Fin 1) (0 : Fin 1) r l) = V m c main_v2 (ix4 g i r l) := by
  obtain ⟨e0, e1, e2, e3, -⟩ := idx_facts t
  unfold iblk
  rw [View.read_apply]
  show V m c main_v2 _ = V m c main_v2 _
  congr 1
  funext a
  apply Fin.ext
  match a with
  | ⟨0, _⟩ => show win0_0.index t (0 : Fin 4) * 1 + 1 * 0 = g.val; omega
  | ⟨1, _⟩ => show win0_0.index t (1 : Fin 4) * 1 + 1 * 0 = i.val; omega
  | ⟨2, _⟩ => show win0_0.index t (2 : Fin 4) * 3125 + 1 * r.val = r.val; omega
  | ⟨3, _⟩ => show win0_0.index t (3 : Fin 4) * 128 + 1 * l.val = l.val; omega

/-- The hit flags' block likewise. -/
theorem iblk1_apply (c : Dev nD) (t : Fin cfg0.N) (g : Fin 2) (i : Fin 25) (hg : t.val / 25 = g.val) (hi : t.val % 25 = i.val)
    (r : Fin 3125) (l : Fin 128) :
    (iblk m c 1 t : Vec F S1x1x3125x128 .bf16) (ix4 (0 : Fin 1) (0 : Fin 1) r l) = V m c main_v3 (ix4 g i r l) := by
  obtain ⟨-, -, -, -, e0, e1, e2, e3, -⟩ := idx_facts t
  unfold iblk
  rw [View.read_apply]
  show V m c main_v3 _ = V m c main_v3 _
  congr 1
  funext a
  apply Fin.ext
  match a with
  | ⟨0, _⟩ => show win0_1.index t (0 : Fin 4) * 1 + 1 * 0 = g.val; omega
  | ⟨1, _⟩ => show win0_1.index t (1 : Fin 4) * 1 + 1 * 0 = i.val; omega
  | ⟨2, _⟩ => show win0_1.index t (2 : Fin 4) * 3125 + 1 * r.val = r.val; omega
  | ⟨3, _⟩ => show win0_1.index t (3 : Fin 4) * 128 + 1 * l.val = l.val; omega

section Ideal

variable (mI : (ℓ : Loc nD τ sig) → Buf (Elt Ideal) ℓ)

/-- Chunk `i` of half `g`: its stack at row 15·q + b, lane `l`, is the sum over the chunk's rows of each sample's
    contribution to sum `q` of bin `b`. -/
theorem ptStack_eq (c : Dev nD) (g : Fin 2) (i : Fin 25) (k : Fin 45) (q : Fin 3) (b : Fin 15) (hk : k.val = 15 * q.val + b.val)
    (l : Fin 128) :
    ptStack mI c (25 * g.val + i.val) k l
      = ∑ r : Fin 3125, Cert.Ece.term q b (V mI c main_v2 (ix4 g i r l)) (V mI c main_v3 (ix4 g i r l)) := by
  have hN : 25 * g.val + i.val < cfg0.N := by rw [show cfg0.N = 50 from N_0]; omega
  rw [ptStack_of_lt mI c _ hN, bodyStack_apply _ _ k q b hk l]
  refine Finset.sum_congr rfl fun r _ => ?_
  rw [iblk0_apply mI c ⟨_, hN⟩ g i (by show (25 * g.val + i.val) / 25 = g.val; omega) (by show (25 * g.val + i.val) % 25 = i.val; omega),
    iblk1_apply mI c ⟨_, hN⟩ g i (by show (25 * g.val + i.val) / 25 = g.val; omega) (by show (25 * g.val + i.val) % 25 = i.val; omega)]

/-- The result array: entry (g, k, l) is the sum over half `g`'s 25 chunks of the chunk's stack at (k, l). -/
def G (c : Dev nD) : Buf (Elt Ideal) ((c : Thread nD τ).loc main_v4) :=
  show S2x45x128.Idx → EReal from
    fun idx => ∑ i : Fin 25, ptStack mI c (25 * (idx 0).val + i.val) (idx 1) (idx 2)

/-- An index of the array is in point `t`'s block iff each coordinate is in the block's range on its axis. -/
theorem mem_blk (t : Fin cfg0.N) (i : S2x45x128.Idx) :
    i ∈ ((cfg0.win 2).blk t).view.set ↔ ∀ a : Fin 3, win0_2.index t a * S1x45x128.size a ≤ (i a).val
      ∧ (i a).val < win0_2.index t a * S1x45x128.size a + S1x45x128.size a := by
  show i ∈ ((View.whole main_v4).slice (win0_2.rect t)).set ↔ _
  rw [View.set_slice_whole, Rect.mem_set_unit]
  exact Iff.rfl

/-- What a half's last point writes back is the half's block of `G`. -/
theorem flushed_eq (c : Dev nD) (t : Fin cfg0.N) (hf : (cfg0.win 2).flush t = true) :
    (dats mI 0 c).flushed 2 t = ((cfg0.win 2).blk t).view.read (Elt Ideal) (G mI c) := by
  have h24 : t.val % 25 = 24 := (flush0_2 t).mp hf
  have hN : t.val < 50 := lt_of_lt_of_eq t.isLt (show cfg0.N = 50 from N_0)
  obtain ⟨-, -, -, -, -, -, -, -, e0, e1, e2⟩ := idx_facts t
  show (cfg0.win 2).cut (grid0.coords t) ((dats mI 0 c).after 2 t) = _
  rw [after0_2, outsAt_eq]
  refine funext fun (y : S1x45x128.Idx) => ?_
  rw [View.read_apply]
  show chain mI c t.val t.isLt y = G mI c (((cfg0.win 2).blk t).view.emb y)
  obtain ⟨k, l, rfl⟩ : ∃ (k : Fin 45) (l : Fin 128), y = ix3 (0 : Fin 1) k l :=
    ⟨y 1, y 2, by
      funext a
      match a with
      | ⟨0, _⟩ => exact Fin.ext (by have h : (y 0).val < 1 := (y 0).isLt; show (y 0).val = 0; omega)
      | ⟨1, _⟩ => rfl
      | ⟨2, _⟩ => rfl⟩
  have hemb : ((cfg0.win 2).blk t).view.emb (ix3 (0 : Fin 1) k l) = ix3 (⟨t.val / 25, by omega⟩ : Fin 2) k l := by
    funext a
    apply Fin.ext
    match a with
    | ⟨0, _⟩ => show win0_2.index t (0 : Fin 3) * 1 + 1 * 0 = t.val / 25; omega
    | ⟨1, _⟩ => show win0_2.index t (1 : Fin 3) * 45 + 1 * k.val = k.val; omega
    | ⟨2, _⟩ => show win0_2.index t (2 : Fin 3) * 128 + 1 * l.val = l.val; omega
  rw [hemb, chain_apply, h24]
  show _ = ∑ i : Fin 25, ptStack mI c (25 * (t.val / 25) + i.val) k l
  rw [Finset.sum_range]
  refine Finset.sum_congr rfl fun i _ => ?_
  congr 1
  omega

/-- Every entry of the array is in the block some half's last point writes back. -/
theorem cover (i : S2x45x128.Idx) : ∃ t : Fin cfg0.N, (cfg0.win 2).flush t = true ∧ i ∈ ((cfg0.win 2).blk t).view.set := by
  have h0 : (i 0).val < 2 := (i 0).isLt
  have h1 : (i 1).val < 45 := (i 1).isLt
  have h2 : (i 2).val < 128 := (i 2).isLt
  have hN : 25 * (i 0).val + 24 < cfg0.N := by rw [show cfg0.N = 50 from N_0]; omega
  refine ⟨⟨25 * (i 0).val + 24, hN⟩, (flush0_2 _).mpr (by show (25 * (i 0).val + 24) % 25 = 24; omega), ?_⟩
  obtain ⟨-, -, -, -, -, -, -, -, e0, e1, e2⟩ := idx_facts ⟨25 * (i 0).val + 24, hN⟩
  have e0' : win0_2.index ⟨25 * (i 0).val + 24, hN⟩ (0 : Fin 3) = (i 0).val := by rw [e0]; show (25 * (i 0).val + 24) / 25 = _; omega
  rw [mem_blk]
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 45 ≤ (i 1).val ∧ (i 1).val < win0_2.index _ (1 : Fin 3) * 45 + 45; omega
  | ⟨2, _⟩ => show win0_2.index _ (2 : Fin 3) * 128 ≤ (i 2).val ∧ (i 2).val < win0_2.index _ (2 : Fin 3) * 128 + 128; omega

/-- So the result array ends holding `G`. -/
theorem final (c : Dev nD) : (dats mI 0 c).arrAt 2 cfg0.N = G mI c :=
  (dats mI 0 c).arrAt_eq_of_cover 2 (G mI c) (flushed_eq mI c) cover

end Ideal

end Cert.KernelIdeal.Acc

end
-- ==== Proof.LibIdx4.lean ====
/-
  Sums over a rank-4 index set, coordinate by coordinate.
-/
import Idealize.ShloMosaic.Lib.ValueIdx

noncomputable section

namespace Cert.LibIdx4

open Idealize.ShloMosaic Idealize.ShloMosaic.ValueIdx

/-- A rank-4 index set, over any extents, is the product of its four coordinate ranges: an index goes to its four
    coordinates, four coordinates to the index `ix4` builds from them. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set, in any commutative monoid, is the fourfold sum over the coordinates, outermost axis
    first: `∑ i, f i = ∑ a, ∑ b, ∑ c, ∑ d, f (ix4 a b c d)`. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-- A sum over the elements of an array is the fourfold sum over the coordinates of the same elements under a rank-4
    shape of as many elements (a reshape keeps the elements; a sum does not mind their arrangement). -/
theorem sum_reshape4 {M : Type*} [AddCommMonoid M] {s : Shape} {n0 n1 n2 n3 : Nat}
    (h : (⟨4, ![n0, n1, n2, n3]⟩ : Shape).numel = s.numel) (g : s.Idx → M) :
    ∑ n : s.Idx, g n
      = ∑ a : Fin n0, ∑ b : Fin n1, ∑ c : Fin n2, ∑ d : Fin n3, g (Shape.reshapeEquiv h (ix4 a b c d)) := by
  rw [← Equiv.sum_comp (Shape.reshapeEquiv h) g, sum_idx4]

end Cert.LibIdx4

end
-- ==== Proof.SumLaws.lean ====
/-
  Sums over all samples, taken block by block.

  The 20,000,000 samples in row-major order are the entries of a [2, 25, 3125, 128] array: the same elements under
  another shape.  A sum over all samples is therefore the sum over the four coordinates, in any order of the four
  sums: extended-real addition is commutative and associative, which is all a change of summation order needs.
-/
import proofs.«106111_j48567490183751_2_alg».proof.Proof.Spec
import proofs.«106111_j48567490183751_2_alg».proof.Proof.LibIdx4
import Idealize.ShloMosaic.Lib.ValueIdx

noncomputable section

namespace Cert.Ece

open Idealize.ShloMosaic Idealize.ShloMosaic.ValueIdx

abbrev S4 : Shape := ⟨4, ![2, 25, 3125, 128]⟩

/-- A sum over all samples is the sum over lanes, halves, chunks and rows of the reshaped array's entries. -/
theorem sum_samples {M : Type*} [AddCommMonoid M] (h : S4.numel = SN.numel) (g : SN.Idx → M) :
    ∑ n : SN.Idx, g n
      = ∑ l : Fin 128, ∑ c : Fin 2, ∑ i : Fin 25, ∑ r : Fin 3125, g (Shape.reshapeEquiv h (ix4 c i r l)) := by
  rw [Cert.LibIdx4.sum_reshape4 h g]
  calc ∑ c : Fin 2, ∑ i : Fin 25, ∑ r : Fin 3125, ∑ l : Fin 128, g (Shape.reshapeEquiv h (ix4 c i r l))
      = ∑ c : Fin 2, ∑ i : Fin 25, ∑ l : Fin 128, ∑ r : Fin 3125, g (Shape.reshapeEquiv h (ix4 c i r l)) :=
        Finset.sum_congr rfl fun c _ => Finset.sum_congr rfl fun i _ => Finset.sum_comm
    _ = ∑ c : Fin 2, ∑ l : Fin 128, ∑ i : Fin 25, ∑ r : Fin 3125, g (Shape.reshapeEquiv h (ix4 c i r l)) :=
        Finset.sum_congr rfl fun c _ => Finset.sum_comm
    _ = ∑ l : Fin 128, ∑ c : Fin 2, ∑ i : Fin 25, ∑ r : Fin 3125, g (Shape.reshapeEquiv h (ix4 c i r l)) :=
        Finset.sum_comm

/-- Sum `q` of bin `b`, taken block by block. -/
theorem bins_blocks (p t : IVec SN 32) (x : SN.Idx → EReal) (h : S4.numel = SN.numel) (q : Fin 3) (b : Fin 15) :
    bins p t x q (ix1 b)
      = ∑ l : Fin 128, ∑ c : Fin 2, ∑ i : Fin 25, ∑ r : Fin 3125,
          term q b (x (Shape.reshapeEquiv h (ix4 c i r l)))
            (hit (p (Shape.reshapeEquiv h (ix4 c i r l))) (t (Shape.reshapeEquiv h (ix4 c i r l)))) :=
  sum_samples h fun n => term q b (x n) (hit (p n) (t n))

end Cert.Ece

end
-- ==== Proof.KernelValue.lean ====
/-
  The kernel's result as the specification's function of the three argument arrays.

  The region finds the confidences and the hit flags (prediction = target, as 0/1) under the [2, 25, 3125, 128] shape.
  After it, the result array's two halves and 128 lanes are summed, leaving 45 numbers: for each of the three sums and
  fifteen bins, the sum over lanes, halves, chunks and rows of every sample's contribution — which is the sum over all
  samples, a change of summation order.  The closing fifteen-bin arithmetic is the specification's, line for line.
-/
import proofs.«106111_j48567490183751_2_alg».proof.Proof.KernelAcc
import proofs.«106111_j48567490183751_2_alg».proof.Proof.SumLaws
import Idealize.ShloMosaic.Lib.Pipeline.Value
import Idealize.ShloMosaic.Lib.StableHlo.Run
import Idealize.ShloMosaic.Lib.Tactic
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Result

open Cert.KernelIdeal Cert.KernelIdeal.Gen Cert.KernelIdeal.Facts Cert.KernelIdeal.Rows Cert.KernelIdeal.Acc

variable (m : (ℓ : Loc nD τ sig) → Buf (Elt Ideal) ℓ) (ρ : Dev nD → PrngReg)

/-! ## The arrays the region finds -/

/-- The confidences as the region finds them: the argument under the [2, 25, 3125, 128] shape. -/
theorem V_v2 (c : Dev nD) : (V m c main_v2 : S2x25x3125x128.Idx → EReal)
    = shapeCast S2x25x3125x128 (m ((c : Thread nD τ).loc main_arg2)) shapeCasts_S20000000_S2x25x3125x128 := by
  show StableHlo.after hostOps0 (fun b => m (c, b)) (Proc.devRef .tc main_v2) = _
  after_results
  rfl

/-- The hit flags as the region finds them: prediction = target as 0/1, under the same shape. -/
theorem V_v3 (c : Dev nD) : (V m c main_v3 : S2x25x3125x128.Idx → EReal)
    = shapeCast S2x25x3125x128 (uitofp (F := Ideal) .bf16 (cmpi .eq (m ((c : Thread nD τ).loc main_arg0)) (m ((c : Thread nD τ).loc main_arg1)))) shapeCasts_S20000000_S2x25x3125x128 := by
  show StableHlo.after hostOps0 (fun b => m (c, b)) (Proc.devRef .tc main_v3) = _
  after_results
  rfl

/-! ## After the region: the two halves and the 128 lanes summed, then the fifteen-bin arithmetic -/

/-- The [2, 45, 128] array summed over its halves, then over its lanes. -/
def summed (A : S2x45x128.Idx → EReal) : FVec Ideal S45 .f32 :=
  Host.reduceAdd (F := Ideal)
    (Host.reduceAdd (F := Ideal) A (constant (F := Ideal) S_ .f32 0x00000000#32) reducesTo_S2x45x128_S45x128_d0 h_S_)
    (constant (F := Ideal) S_ .f32 0x00000000#32) reducesTo_S45x128_S45_d1 h_S_

theorem redLanes : S45x128.Reduces [1] S45 := by decide
theorem redHalves : S2x45x128.Reduces [0] S45x128 := by decide

/-- The index a sum over the lanes inserts. -/
theorem lift_lanes (k : Fin 45) (l : Fin 128) : redLanes.lift (ix1 k) l = ix2 k l := by
  funext a
  match a with
  | ⟨0, _⟩ => rfl
  | ⟨1, _⟩ => rfl

/-- The index a sum over the halves inserts. -/
theorem lift_halves (k : Fin 45) (l : Fin 128) (g : Fin 2) : redHalves.lift (ix2 k l) g = ix3 g k l := by
  funext a
  match a with
  | ⟨0, _⟩ => rfl
  | ⟨1, _⟩ => rfl
  | ⟨2, _⟩ => rfl

/-- A host sum over one axis from the zero word is the sum over that axis's coordinate. -/
theorem hostSum_apply {s t : Shape} {a : Fin s.rank} (h' : s.ReducesTo [a] t) (h : s.Reduces [a] t) (hu : 0 < S_.numel)
    (x : s.Idx → EReal) (j : t.Idx) :
    Host.reduceAdd (F := Ideal) (φ := .f32) x (constant (F := Ideal) S_ .f32 0x00000000#32) h' hu j
      = ∑ k : Fin (s.size a), x (h.lift j k) := by
  show Ideal.hostReduceAdd h' x (Ideal.ofBits .f32 0x00000000#32) j = _
  rw [Ideal.hostReduceAdd_single h' h, Ideal.ofBits_zero_f32, zero_add]

/-- Row `k` of the summed array: the sum over lanes and halves of the array's entries. -/
theorem summed_apply (A : S2x45x128.Idx → EReal) (k : Fin 45) :
    summed A (ix1 k) = ∑ l : Fin 128, ∑ g : Fin 2, A (ix3 g k l) := by
  unfold summed
  rw [hostSum_apply reducesTo_S45x128_S45_d1 redLanes h_S_]
  show (∑ l : Fin 128, Host.reduceAdd (F := Ideal) A (constant (F := Ideal) S_ .f32 0x00000000#32)
    reducesTo_S2x45x128_S45x128_d0 h_S_ (redLanes.lift (ix1 k) l)) = _
  refine Finset.sum_congr rfl fun l _ => ?_
  rw [lift_lanes, hostSum_apply reducesTo_S2x45x128_S45x128_d0 redHalves h_S_]
  show (∑ g : Fin 2, A (redHalves.lift (ix2 k l) g)) = _
  refine Finset.sum_congr rfl fun g _ => ?_
  rw [lift_halves]

/-- A band of fifteen entries starting at `off`. -/
theorem band_apply (v : S45.Idx → EReal) (off : Nat) (h : S45.Slices ![off] S15) (b : Fin 15) (hb : off + b.val < 45) :
    extractStridedSlice S15 ![off] v h (ix1 b) = v (ix1 ⟨off + b.val, hb⟩) := by
  unfold extractStridedSlice
  congr 1
  funext a
  match a with
  | ⟨0, _⟩ => rfl

/-- Band `q` of the summed result array is sum `q` over all samples, bin by bin. -/
theorem band_eq_bins (c : Dev nD) (q : Fin 3) (h : S45.Slices ![15 * q.val] S15) :
    extractStridedSlice S15 ![15 * q.val] (summed (G m c)) h
      = Cert.Ece.bins (m ((c : Thread nD τ).loc main_arg0)) (m ((c : Thread nD τ).loc main_arg1))
          (m ((c : Thread nD τ).loc main_arg2)) q := by
  funext j
  obtain ⟨b, rfl⟩ : ∃ b : Fin 15, j = ix1 b := ⟨j 0, eq_ix1 j⟩
  have hq := q.isLt
  have hb := b.isLt
  rw [band_apply _ _ _ b (by omega), summed_apply,
    Cert.Ece.bins_blocks _ _ _ shapeCasts_S20000000_S2x25x3125x128 q b]
  refine Finset.sum_congr rfl fun l _ => Finset.sum_congr rfl fun g _ => ?_
  show (∑ i : Fin 25, ptStack m c (25 * g.val + i.val) ⟨15 * q.val + b.val, by omega⟩ l) = _
  refine Finset.sum_congr rfl fun i _ => ?_
  rw [ptStack_eq m c g i ⟨15 * q.val + b.val, by omega⟩ q b rfl l]
  refine Finset.sum_congr rfl fun r _ => ?_
  rw [V_v2, V_v3]
  rfl

set_option maxHeartbeats 2000000 in
/-- The program's result, from the result array `G`: the lines after the region are the summing and the fifteen-bin
    arithmetic of the three bands. -/
theorem tail_eq (c : Dev nD) :
    Pipeline.afterTail₀ cfgs (dats m) 0 (V0 m) [hostOps1, hostOps1_1, hostOps1_2] c main_v23
      = Cert.Ece.eceTail (extractStridedSlice S15 ![0] (summed (G m c)) slices_S45_S15_0)
          (extractStridedSlice S15 ![15] (summed (G m c)) slices_S45_S15_15)
          (extractStridedSlice S15 ![30] (summed (G m c)) slices_S45_S15_30) := by
  have hA : Pipeline.withArrays (cfgs 0).spec c (V0 m c) (fun w => (dats m 0 c).arrAt w (cfgs 0).N) (Proc.devRef .tc main_v4)
      = G m c := (Pipeline.withArrays_arr spec0 launch0.win.arr_inj c _ _ 2).trans (final m c)
  unfold Pipeline.afterTail₀
  simp only [hostOps1, hostOps1_1, hostOps1_2, List.flatten_cons, List.flatten_nil, List.append_nil, List.cons_append, List.nil_append]
  after_results_simp
  rw [hA]
  rfl

/-- The program's result is the specification's function of the arguments. -/
theorem result_eq (c : Dev nD) :
    Pipeline.afterTail₀ cfgs (dats m) 0 (V0 m) [hostOps1, hostOps1_1, hostOps1_2] c main_v23
      = Cert.Ece.ece (m ((c : Thread nD τ).loc main_arg0)) (m ((c : Thread nD τ).loc main_arg1))
          (m ((c : Thread nD τ).loc main_arg2)) :=
  (tail_eq m c).trans
    (congr (congr (congrArg Cert.Ece.eceTail (band_eq_bins m c 0 slices_S45_S15_0)) (band_eq_bins m c 1 slices_S45_S15_15))
      (band_eq_bins m c 2 slices_S45_S15_30))

/-- The run, read: every execution ends with the result at the specification's value and the arguments unchanged. -/
theorem run : θ_run defs (onTc (τ := τ) (main (F := Ideal))) ⟨m, fun _ => 0, ρ⟩ fun r => ∀ c : Dev nD,
      r.2.mem ((c : Thread nD τ).loc main_v23)
        = Cert.Ece.ece (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
      ⟨((h c).2 main_v23 (Pipeline.mem_restRefs_of main_v23 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Result

end
-- ==== Proof.RefValue.lean ====
/-
  The reference's result is the calibration error `Cert.Ece.ece` of its three argument arrays, at the exact values.

  The reference forms, per sample, the bin word `v = ⌈15·x⌉ - 1` (a 32-bit integer), the flag `v ≥ 0` (signed), the
  index word (`v` where the flag holds, else `0`) and the weight (`1` where the flag holds, else `0`), and scatters three
  update vectors (the weights, the confidences times the weights, the hit flags times the weights) into fifteen zeros
  at the index words; a fifteen-element tail makes the result from the three vectors of sums.

  1. An update of this scatter lands at bin `i` exactly when its index word, read signed, equals `i` (`resultIdx_iff`),
     so the scatter read at a bin is the sum over ALL samples of "index word = bin ? update : 0" (`scatter_apply`).
  2. For one sample and one bin, "index word = b ? update : 0" is "v is the word b ? contribution : 0": where `v ≥ 0` the
     index word is `v` and the weight is `1`; where `v < 0` the weight, hence the update, is `0`, and `v` is no bin's word
     since a bin's word is non-negative (`contrib_eq`).
  3. Hence each scatter is `Cert.Ece.bins` (`scat_count`, `scat_conf`, `scat_hit`), and the tail is the specification's
     verbatim (`res_eq_tail`).
-/
import proofs.«106111_j48567490183751_2_alg».proof.Proof.Spec
import proofs.«106111_j48567490183751_2_alg».proof.Proof.RefRun
import Idealize.ShloMosaic.Lib.ValueIdx
import Idealize.ShloMosaic.PureOps.Ideal.Laws

noncomputable section
namespace Cert.ReferenceIdeal.RefValue
open Cert.ReferenceIdeal Cert.ReferenceIdeal.Gen Idealize.ShloMosaic Idealize.ShloMosaic.TcCoe Idealize.SL.Sem Idealize.ShloMosaic.ValueIdx

/-! ## The scatter read at a bin -/

/-- The scatter's dimension numbers. -/
abbrev dS : ScatterDims S15 S20000000x1 S20000000 := scatter_S15_S20000000x1_S20000000_n_0_0_1

/-- The window's start on the operand's one axis is the index word at `(j, 0)`, read signed. -/
theorem start_eq {w : Nat} (j : S20000000.Idx) (idx : IVec S20000000x1 w) (a : Fin S15.rank) :
    dS.start j idx a = (idx (ix2 (j 0) 0)).toInt := by
  obtain rfl : a = 0 := Subsingleton.elim _ _
  unfold ScatterDims.start
  rw [dif_pos (show (0 : Fin 1) ∈ dS.scatterDimsToOperandDims from List.mem_singleton.mpr rfl)]
  have hsi : dS.siIdx j ⟨List.idxOf (0 : Fin 1) dS.scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is an inserted window axis: the window coordinate is `0`. -/
theorem window_eq (j : S20000000.Idx) (a : Fin S15.rank) : dS.window j a = 0 := by
  obtain rfl : a = 0 := Subsingleton.elim _ _
  unfold ScatterDims.window
  rw [dif_neg (by decide)]

/-- An update lands at bin `i` exactly when its index word, read signed, is `i`'s coordinate. -/
theorem resultIdx_iff {w : Nat} (j : S20000000.Idx) (idx : IVec S20000000x1 w) (i : S15.Idx) :
    dS.resultIdx? j idx = some i ↔ (idx (ix2 (j 0) 0)).toInt = ((i 0).val : Int) := by
  unfold ScatterDims.resultIdx?
  simp only [start_eq, window_eq]
  have hi : (i 0).val < 15 := (i 0).isLt
  constructor
  · intro h
    split at h
    · rename_i hb
      have h0 := hb 0
      have hf := congrFun (Option.some.inj h) 0
      have hv := congrArg Fin.val hf
      simp only at hv
      omega
    · exact absurd h (by simp)
  · intro h
    rw [dif_pos (by intro a; obtain rfl : a = 0 := Subsingleton.elim _ _; show 0 ≤ _ ∧ _ < ((15 : Nat) : Int); omega)]
    congr 1
    funext a
    obtain rfl : a = 0 := Subsingleton.elim _ _
    refine Fin.ext ?_
    show ((idx (ix2 (j 0) 0)).toInt + ((0 : Nat) : Int)).toNat = (i 0).val
    omega

/-- The index array `[N,1]` made from an `[N]` vector, read at `(n, 0)`, is the vector at `n`. -/
theorem bcastIdx_apply {α : Type} (V : S20000000.Idx → α) (j : S20000000.Idx) :
    broadcastInDim S20000000x1 ![0] bcast_S20000000_S20000000x1_0 V (ix2 (j 0) 0) = V j := by
  unfold broadcastInDim
  refine congrArg V ?_
  funext a
  obtain rfl : a = 0 := Subsingleton.elim _ _
  refine Fin.ext ?_
  have h : ¬ (S20000000.size 0 = 1) := by decide
  rw [dif_neg h]
  rfl

/-- At the exact instance the host's accumulating scatter is the exact one. -/
theorem scatterAdd_eq (x : FVec Ideal S15 .f32) (idx : IVec S20000000x1 32) (upd : FVec Ideal S20000000 .f32) :
    Host.scatterAdd (F := Ideal) dS x idx upd = Ideal.hostScatterAdd dS x idx upd := rfl

/-- The splat of the f32 zero word is the extended real `0` at every bin. -/
theorem zeros_apply (b : S15.Idx) :
    (broadcastInDim S15 ![] bcast_S_S15 (constant (F := Ideal) S_ .f32 0x00000000#32)) b = 0 :=
  Ideal.ofBits_zero_f32

/-- The scatter into fifteen zeros, read at a bin: the sum over all samples of the updates whose index word is the bin. -/
theorem scatter_apply (V : IVec S20000000 32) (upd : FVec Ideal S20000000 .f32) (b : S15.Idx) :
    Host.scatterAdd (F := Ideal) dS (broadcastInDim S15 ![] bcast_S_S15 (constant S_ .f32 0x00000000#32))
        (broadcastInDim S20000000x1 ![0] bcast_S20000000_S20000000x1_0 V) upd b
      = ∑ n : S20000000.Idx, if (V n).toInt = ((b 0).val : Int) then upd n else 0 := by
  rw [scatterAdd_eq]
  delta Ideal.hostScatterAdd
  beta_reduce
  rw [zeros_apply, zero_add, Finset.sum_filter]
  refine Finset.sum_congr rfl fun n _ => ?_
  refine if_congr ?_ rfl rfl
  rw [resultIdx_iff, bcastIdx_apply]

/-! ## One sample's contribution to one bin -/

/-- A bin number below fifteen, as a 32-bit word read signed, is itself. -/
theorem toInt_ofNat_bin (b : Fin 15) : (BitVec.ofNat 32 b.val).toInt = (b.val : Int) := by
  revert b; decide

/-- A bin number below fifteen is a non-negative word. -/
theorem sle_ofNat_bin (b : Fin 15) : (0#32).sle (BitVec.ofNat 32 b.val) = true := by
  revert b; decide

/-- One sample's contribution to a bin. The sample's index word is its bin word `v` when `v ≥ 0` (signed) and `0`
    otherwise; its update `U` is `P` when `v ≥ 0` and `0` otherwise. Then "index word = b, contribute `U`" is
    "`v` is the word `b`, contribute `P`": a negative `v` contributes `0` on both sides, to whichever bin. -/
theorem contrib_eq (v : BitVec 32) (b : Fin 15) (P U : EReal)
    (h1 : IntOp.cmpi .sge v 0#32 = 1#1 → U = P) (h0 : IntOp.cmpi .sge v 0#32 = 0#1 → U = 0) :
    (if (Scalar.select (IntOp.cmpi .sge v 0#32) v 0#32).toInt = (b.val : Int) then U else 0)
      = if v = BitVec.ofNat 32 b.val then P else 0 := by
  have hc : IntOp.cmpi .sge v 0#32 = BitVec.ofBool ((0#32).sle v) := rfl
  cases hs : (0#32).sle v
  · have hc0 : IntOp.cmpi .sge v 0#32 = 0#1 := by rw [hc, hs]; rfl
    rw [h0 hc0, hc0, select_zero, ite_self]
    have hne : ¬ v = BitVec.ofNat 32 b.val := by
      intro h
      rw [h, sle_ofNat_bin] at hs
      exact Bool.noConfusion hs
    rw [if_neg hne]
  · have hc1 : IntOp.cmpi .sge v 0#32 = 1#1 := by rw [hc, hs]; rfl
    rw [h1 hc1, hc1, select_one]
    refine if_congr ⟨fun h => ?_, fun h => ?_⟩ rfl rfl
    · exact BitVec.eq_of_toInt_eq (h.trans (toInt_ofNat_bin b).symm)
    · rw [h]; exact toInt_ofNat_bin b

/-- The one-bit word `1` converted unsigned is the extended real `1`. -/
theorem uitofp_one : (FloatOps.uitofp (F := Ideal) .f32 (1#1) : Ideal .f32) = 1 := by
  show (((1#1 : BitVec 1).toNat : ℝ) : EReal) = 1
  simp

/-- The one-bit word `0` converted unsigned is the extended real `0`. -/
theorem uitofp_zero : (FloatOps.uitofp (F := Ideal) .f32 (0#1) : Ideal .f32) = 0 := by
  show (((0#1 : BitVec 1).toNat : ℝ) : EReal) = 0
  simp

/-! ## The reference's sample-wise values, named -/

/-- The reference's bin words: `⌈15·x⌉` as a 32-bit integer, less one, sample by sample. -/
def binWords (x : FVec Ideal S20000000 .f32) : IVec S20000000 32 :=
  subi (fptosi 32 (Host.ceil (mulf x (broadcastInDim S20000000 ![] bcast_S_S20000000 (constant S_ .f32 0x41700000#32)))))
    (broadcastInDim S20000000 ![] bcast_S_S20000000 (constantI S_ 32 1#32))

/-- Which samples have a non-negative bin word. -/
def valid (x : FVec Ideal S20000000 .f32) : IVec S20000000 1 :=
  cmpi .sge (binWords x) (broadcastInDim S20000000 ![] bcast_S_S20000000 (constantI S_ 32 0#32))

/-- The index words the scatters read: the bin word where it is non-negative, else zero. -/
def idxWords (x : FVec Ideal S20000000 .f32) : IVec S20000000 32 :=
  select (valid x) (binWords x) (broadcastInDim S20000000 ![] bcast_S_S20000000 (id (constantI S_ 32 0#32)))

/-- The weights: one where the bin word is non-negative, else zero. -/
def weight (x : FVec Ideal S20000000 .f32) : FVec Ideal S20000000 .f32 := uitofp .f32 (valid x)

/-- The scatter of updates `upd` into fifteen zeros at the index words. -/
def scat (x upd : FVec Ideal S20000000 .f32) : FVec Ideal S15 .f32 :=
  Host.scatterAdd dS (broadcastInDim S15 ![] bcast_S_S15 (constant S_ .f32 0x00000000#32))
    (broadcastInDim S20000000x1 ![0] bcast_S20000000_S20000000x1_0 (idxWords x)) upd

/-- The reference's result is the common tail at its three scatters. -/
theorem res_eq_tail (m : (ℓ : Loc nD τ sig) → Buf (Elt Ideal) ℓ) (c : Dev nD) :
    RunP.res_main_v36 (F := Ideal) m c
      = Cert.Ece.eceTail
          (scat (m ((c.tc : Thread nD τ).loc main_arg2)) (weight (m ((c.tc : Thread nD τ).loc main_arg2))))
          (scat (m ((c.tc : Thread nD τ).loc main_arg2))
            (mulf (m ((c.tc : Thread nD τ).loc main_arg2)) (weight (m ((c.tc : Thread nD τ).loc main_arg2)))))
          (scat (m ((c.tc : Thread nD τ).loc main_arg2))
            (mulf (uitofp .f32 (cmpi .eq (m ((c.tc : Thread nD τ).loc main_arg0)) (m ((c.tc : Thread nD τ).loc main_arg1))))
              (weight (m ((c.tc : Thread nD τ).loc main_arg2))))) := by
  delta RunP.res_main_v36
  rfl

/-! ## The scatters are the per-bin sums -/

/-- The bin words, read at a sample. -/
theorem binWords_apply (x : FVec Ideal S20000000 .f32) (n : S20000000.Idx) :
    binWords x n = Cert.Ece.binWord (x n) := rfl

/-- The index words, read at a sample. -/
theorem idxWords_apply (x : FVec Ideal S20000000 .f32) (n : S20000000.Idx) :
    idxWords x n = Scalar.select (IntOp.cmpi .sge (Cert.Ece.binWord (x n)) 0#32) (Cert.Ece.binWord (x n)) 0#32 := rfl

/-- The weights, read at a sample. -/
theorem weight_apply (x : FVec Ideal S20000000 .f32) (n : S20000000.Idx) :
    weight x n = FloatOps.uitofp (F := Ideal) .f32 (IntOp.cmpi .sge (Cert.Ece.binWord (x n)) 0#32) := rfl

/-- The scatter of the weights is the count of samples per bin. -/
theorem scat_count (p t : IVec S20000000 32) (x : FVec Ideal S20000000 .f32) :
    scat x (weight x) = Cert.Ece.bins p t x 0 := by
  funext b
  delta scat
  rw [scatter_apply]
  delta Cert.Ece.bins
  beta_reduce
  refine Finset.sum_congr rfl fun n _ => ?_
  rw [idxWords_apply, weight_apply]
  exact contrib_eq (Cert.Ece.binWord (x n)) (b 0) 1 _ (fun h => by rw [h]; exact uitofp_one)
    (fun h => by rw [h]; exact uitofp_zero)

/-- The scatter of the weighted confidences is the sum of confidences per bin. -/
theorem scat_conf (p t : IVec S20000000 32) (x : FVec Ideal S20000000 .f32) :
    scat x (mulf x (weight x)) = Cert.Ece.bins p t x 1 := by
  funext b
  delta scat
  rw [scatter_apply]
  delta Cert.Ece.bins
  beta_reduce
  refine Finset.sum_congr rfl fun n _ => ?_
  rw [idxWords_apply, mulf_apply, weight_apply]
  exact contrib_eq (Cert.Ece.binWord (x n)) (b 0) (x n) _ (fun h => by rw [h, uitofp_one, mul_one])
    (fun h => by rw [h, uitofp_zero, mul_zero])

/-- The scatter of the weighted hit flags is the sum of hit flags per bin. -/
theorem scat_hit (p t : IVec S20000000 32) (x : FVec Ideal S20000000 .f32) :
    scat x (mulf (uitofp .f32 (cmpi .eq p t)) (weight x)) = Cert.Ece.bins p t x 2 := by
  funext b
  delta scat
  rw [scatter_apply]
  delta Cert.Ece.bins
  beta_reduce
  refine Finset.sum_congr rfl fun n _ => ?_
  rw [idxWords_apply, mulf_apply, weight_apply]
  exact contrib_eq (Cert.Ece.binWord (x n)) (b 0) (Cert.Ece.hit (p n) (t n)) _
    (fun h => by rw [h, uitofp_one]; exact mul_one _)
    (fun h => by rw [h, uitofp_zero]; exact mul_zero _)

/-! ## The result -/

/-- The reference's result is the calibration error of its three argument arrays. -/
theorem ref_result (m : (ℓ : Loc nD τ sig) → Buf (Elt Ideal) ℓ) (c : Dev nD) :
    RunP.res_main_v36 (F := Ideal) m c
      = Cert.Ece.ece (m ((c.tc : Thread nD τ).loc main_arg0)) (m ((c.tc : Thread nD τ).loc main_arg1))
          (m ((c.tc : Thread nD τ).loc main_arg2)) :=
  (res_eq_tail m c).trans
    (congr (congr (congrArg Cert.Ece.eceTail
      (scat_count (m ((c.tc : Thread nD τ).loc main_arg0)) (m ((c.tc : Thread nD τ).loc main_arg1))
        (m ((c.tc : Thread nD τ).loc main_arg2))))
      (scat_conf (m ((c.tc : Thread nD τ).loc main_arg0)) (m ((c.tc : Thread nD τ).loc main_arg1))
        (m ((c.tc : Thread nD τ).loc main_arg2))))
      (scat_hit (m ((c.tc : Thread nD τ).loc main_arg0)) (m ((c.tc : Thread nD τ).loc main_arg1))
        (m ((c.tc : Thread nD τ).loc main_arg2))))

end Cert.ReferenceIdeal.RefValue
end
-- ==== Proof.lean ====
/-
  The kernel and its reference compute one expected calibration error.

  Twenty million samples (prediction, target, confidence) are binned by confidence into fifteen bins — a confidence x
  falls in bin ⌈15·x⌉ − 1, formed on 32-bit words; anything outside 0 … 14 is no bin — and per bin three sums are taken:
  the count, the confidences, the hits (prediction = target).  The error is
  Σ_b [count_b > 0] · |conf_b / max(count_b, 1) − hit_b / max(count_b, 1)| · count_b / N  (Spec.lean).

  The kernel visits the samples as a [2, 25, 3125, 128] array, one [3125, 128] chunk per grid point: for every bin it
  masks the chunk by the bin word and sums the mask, the masked confidences and the masked hits down the 3125 rows, keeps
  the 45 lane-wise rows, and accumulates them over a half's 25 chunks in the output block; the host then sums the two
  halves and the 128 lanes.  The reference scatters every sample's three contributions to its bin's entry, a negative bin
  word redirected to bin 0 with weight zero.  Over the extended reals both are, for each of the 45 (sum, bin) pairs, the
  sum over all samples of the sample's contribution when its bin word is the bin's: addition there is commutative and
  associative, which is all that regrouping a sum needs, and a weight-zero contribution is zero.  The closing fifteen-bin
  arithmetic is the same in both programs.  No use is made of the inputs' finiteness.

  The three frames are the generated ones (the reference's is its run with the result dropped); the idealization
  rewrote nothing, so `preserves` is `True`.
-/
import proofs.«106111_j48567490183751_2_alg».proof.Proof.KernelValue
import proofs.«106111_j48567490183751_2_alg».proof.Proof.RefValue
import proofs.«106111_j48567490183751_2_alg».proof.Defs
import proofs.«106111_j48567490183751_2_alg».proof.Proof.Gen.Kernel
import proofs.«106111_j48567490183751_2_alg».proof.Proof.Gen.Kernel.Frame
import proofs.«106111_j48567490183751_2_alg».proof.Proof.Gen.KernelIdeal
import proofs.«106111_j48567490183751_2_alg».proof.Proof.Gen.KernelIdeal.Frame
import proofs.«106111_j48567490183751_2_alg».proof.Proof.Gen.ReferenceIdeal
import proofs.«106111_j48567490183751_2_alg».proof.Proof.Gen.Pre_finite_inputs
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RunP.run (F := Ideal) m ρ)

/-- Both runs end at the specification's value of arguments that agree. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.RefValue.ref_result, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
